-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S800000 32) (main_arg2 : IVec S800000 32) (main_arg3 : FVec F S128x128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 35
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S_, .f32⟩
  | .hbm, ⟨16, _⟩ => ⟨S100000x128, .f32⟩
  | .hbm, ⟨17, _⟩ => ⟨S800000x1, .i32⟩
  | .hbm, ⟨18, _⟩ => ⟨S100000x128, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S100000, .f32⟩
  | .hbm, ⟨23, _⟩ => ⟨S800000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S128x128, .f32⟩
  | .hbm, ⟨32, _⟩ => ⟨S128x128, .f32⟩
  | .hbm, ⟨33, _⟩ => ⟨S1x128, .f32⟩
  | .hbm, ⟨34, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S_, .f32⟩
  | .hbm, ⟨16, _⟩ => ⟨S100000x128, .f32⟩
  | .hbm, ⟨17, _⟩ => ⟨S800000x1, .i32⟩
  | .hbm, ⟨18, _⟩ => ⟨S100000x128, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S100000, .f32⟩
  | .hbm, ⟨23, _⟩ => ⟨S800000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S128x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The fused GraphSAGE layer as ONE function of its operand arrays, index by index, on the extended reals.

  For node features `x`, neighbour means `h` (both [100000, 128]), the two weight matrices already
  transposed to [input feature, output feature] (`wn` for the neighbour path, `ws` for the self path) and
  the bias `b`, the entry at node `n` and output feature `o` is

      out[n, o] = (Σ_k x[n, k] · ws[k, o] + b[o]) + Σ_k h[n, k] · wn[k, o].

  The tiled kernel and the whole-array reference both compute exactly this expression, the two additions in
  this order: a matrix product into a zero accumulator and a host `dot_general` are the same sum over the
  contracted axis, and a change of float format is the identity. Nothing is rearranged, so no law that would
  need finite entries (distributivity, cancellation) is used.
-/
import Idealize.ShloMosaic.PureOps.Ideal
import Idealize.ShloMosaic.Lib.ValueIdx

noncomputable section

open Idealize.ShloMosaic Idealize.ShloMosaic.ValueIdx
open scoped BigOperators

namespace Cert.SageFusion

/-- Node-by-feature arrays: 100000 nodes, 128 features. -/
abbrev NodeFeat : Shape := ⟨2, ![100000, 128]⟩
/-- A weight matrix, [128, 128]. -/
abbrev Weight : Shape := ⟨2, ![128, 128]⟩
/-- The bias vector, [128]. -/
abbrev BiasVec : Shape := ⟨1, ![128]⟩

/-- The layer's output: self path plus bias, plus neighbour path. `ws` and `wn` are indexed
    [input feature, output feature]. -/
def fused (x h : NodeFeat.Idx → EReal) (wn ws : Weight.Idx → EReal) (b : BiasVec.Idx → EReal) : NodeFeat.Idx → EReal :=
  fun i => (∑ k : Fin 128, x (ix2 (i 0 : Fin 100000) k) * ws (ix2 k (i 1 : Fin 128)) + b (ix1 (i 1 : Fin 128)))
    + ∑ k : Fin 128, h (ix2 (i 0 : Fin 100000) k) * wn (ix2 k (i 1 : Fin 128))

/-- The same, with the index given by its two coordinates. -/
theorem fused_apply (x h : NodeFeat.Idx → EReal) (wn ws : Weight.Idx → EReal) (b : BiasVec.Idx → EReal)
    (n : Fin 100000) (o : Fin 128) :
    fused x h wn ws b (ix2 n o) = (∑ k : Fin 128, x (ix2 n k) * ws (ix2 k o) + b (ix1 o)) + ∑ k : Fin 128, h (ix2 n k) * wn (ix2 k o) := rfl

end Cert.SageFusion

end
-- ==== Proof.RefValue.lean ====
/-
  The reference's result is the fused layer of its own intermediate arrays.

  The reference transposes each weight matrix, multiplies the whole feature array and the whole neighbour-mean
  array by them (`dot_general`, contracting the 128 input features), broadcasts the bias over the nodes and adds:
  (x · W_selfᵀ + b) + h · W_neighᵀ. Entry by entry that is `SageFusion.fused` of the features, the mean array,
  the two transposed matrices and the bias — the two products as sums over the contracted feature, the bias read at the
  entry's column.
-/
import proofs.«169130_j37563783971094_2_alg».proof.Proof.Gen.ReferenceIdeal.Read
import proofs.«169130_j37563783971094_2_alg».proof.Proof.Spec

noncomputable section

open Idealize.ShloMosaic Idealize.ShloMosaic.ValueIdx
open scoped BigOperators

namespace Cert.ReferenceIdeal.RefValue

open Cert.ReferenceIdeal Cert.ReferenceIdeal.Read Cert.SageFusion

/-- The last stage of the reference, as the fused layer of: the features, the neighbour means (stage 18),
    `W_neigh` transposed (stage 19), `W_self` transposed (stage 21), and the bias. -/
theorem result_eq (x0 : (⟨S100000x128, .f32⟩ : BufTy).Contents (Elt Ideal)) (x1 x2 : (⟨S800000, .i32⟩ : BufTy).Contents (Elt Ideal))
    (x3 x4 : (⟨S128x128, .f32⟩ : BufTy).Contents (Elt Ideal)) (x5 : (⟨S128, .f32⟩ : BufTy).Contents (Elt Ideal)) :
    val_main_v26 (F := Ideal) x0 x1 x2 x3 x4 x5
      = fused x0 (val_main_v18 (F := Ideal) x0 x1 x2) (val_main_v19 (F := Ideal) x3) (val_main_v21 (F := Ideal) x4) x5 := by
  funext i
  have el22 : ∀ k : Fin 128, lidx_main_v22 i k = ix2 (i 0 : Fin 100000) k := fun k => funext fun a => by
    match a with | ⟨0, _⟩ => rfl | ⟨1, _⟩ => rfl
  have er22 : ∀ k : Fin 128, ridx_main_v22 i k = ix2 k (i 1 : Fin 128) := fun k => funext fun a => by
    match a with | ⟨0, _⟩ => rfl | ⟨1, _⟩ => rfl
  have el20 : ∀ k : Fin 128, lidx_main_v20 i k = ix2 (i 0 : Fin 100000) k := fun k => funext fun a => by
    match a with | ⟨0, _⟩ => rfl | ⟨1, _⟩ => rfl
  have er20 : ∀ k : Fin 128, ridx_main_v20 i k = ix2 k (i 1 : Fin 128) := fun k => funext fun a => by
    match a with | ⟨0, _⟩ => rfl | ⟨1, _⟩ => rfl
  have eb : idx_main_v23 (idx_main_v24 i) = ix1 (i 1 : Fin 128) := funext fun a => by
    match a with | ⟨0, _⟩ => rfl
  rw [val_main_v26_apply, val_main_v25_apply, val_main_v22_apply, val_main_v24_apply, val_main_v23_apply, val_main_v20_apply]
  simp only [el22, er22, el20, er20, eb]
  rfl

end Cert.ReferenceIdeal.RefValue

end
-- ==== Proof.Tile.lean ====
/-
  One tile of the kernel, read at an entry.

  At a grid point the kernel body holds a 5000-row tile `xf` of the node features, the matching tile `xh` of the
  neighbour means, the two 128 × 128 weight matrices `wn`, `ws` (already [input, output]) and the bias as a
  1 × 128 row `b`. On the extended reals rounding to bf16 is the identity and a matrix product into the zero
  accumulator is the plain sum over the contracted axis, so the stored tile is, at row `r` and column `o`,

      (Σ_k xf[r, k] · ws[k, o] + b[0, o]) + Σ_k xh[r, k] · wn[k, o].
-/
import proofs.«169130_j37563783971094_2_alg».proof.Proof.Gen.KernelIdeal.Skeleton
import Idealize.ShloMosaic.PureOps.Ideal.Laws
import Idealize.ShloMosaic.Lib.ValueIdx
import Idealize.ShloMosaic.Lib.Pipeline.Value

noncomputable section

open Idealize.ShloMosaic Idealize.ShloMosaic.ValueIdx
open scoped BigOperators

namespace Cert.KernelIdeal.Tile

open Cert.KernelIdeal Cert.KernelIdeal.Gen

/-- The tile product's dimension numbers: rows × contraction times contraction × columns. -/
abbrev tileDot : DotDims S5000x128 S128x128 S5000x128 := dot_S5000x128_S128x128_S5000x128_1_0_0_1_n_n

/-- The left operand is read at the output's row … -/
theorem lhs_row (i : S5000x128.Idx) (q : tileDot.contr.Idx) : (tileDot.lhsIdx i q 0).val = (i 0).val := by
  unfold DotDims.lhsIdx
  rw [dif_neg (show ¬(0 : Fin S5000x128.rank) ∈ tileDot.lhsBatch by decide), dif_pos (show (0 : Fin S5000x128.rank) ∈ tileDot.lhsNonContracting by decide)]
  rfl
/-- … and the contraction index; -/
theorem lhs_col (i : S5000x128.Idx) (q : tileDot.contr.Idx) : (tileDot.lhsIdx i q 1).val = (q ⟨0, by decide⟩).val :=
  tileDot.lhsIdx_val_of_single rfl i q
/-- the right operand at the contraction index … -/
theorem rhs_row (i : S5000x128.Idx) (q : tileDot.contr.Idx) : (tileDot.rhsIdx i q 0).val = (q ⟨0, by decide⟩).val :=
  tileDot.rhsIdx_val_of_single rfl i q
/-- … and the output's column. -/
theorem rhs_col (i : S5000x128.Idx) (q : tileDot.contr.Idx) : (tileDot.rhsIdx i q 1).val = (i 1).val := by
  unfold DotDims.rhsIdx
  rw [dif_neg (show ¬(1 : Fin S128x128.rank) ∈ tileDot.rhsBatch by decide), dif_pos (show (1 : Fin S128x128.rank) ∈ tileDot.rhsNonContracting by decide)]
  rfl

/-- A tile product into the zero accumulator, at row `r` and column `o`: the sum over the 128 contracted features. -/
theorem tile_matmul {φ₁ φ₂ : FTy} (a : FVec Ideal S5000x128 φ₁) (w : FVec Ideal S128x128 φ₂) (r : Fin 5000) (o : Fin 128) :
    matmul (F := Ideal) tileDot none a w (constant (F := Ideal) S5000x128 .f32 0x00000000#32) (ix2 r o)
      = ∑ k : Fin 128, a (ix2 r k) * w (ix2 k o) := by
  simp only [matmul]
  rw [Ideal.matmul_constant_zero_apply, ← Equiv.sum_comp (ValueIdx.contrEquiv1 tileDot 128 rfl rfl).symm]
  refine Finset.sum_congr rfl fun k _ => ?_
  have hk := ValueIdx.contrEquiv1_symm_val tileDot 128 rfl rfl k
  have el : tileDot.lhsIdx (ix2 r o) ((ValueIdx.contrEquiv1 tileDot 128 rfl rfl).symm k) = ix2 r k := funext fun d => Fin.ext (by
    match d with
    | ⟨0, _⟩ => exact lhs_row _ _
    | ⟨1, _⟩ => exact (lhs_col _ _).trans hk)
  have er : tileDot.rhsIdx (ix2 r o) ((ValueIdx.contrEquiv1 tileDot 128 rfl rfl).symm k) = ix2 k o := funext fun d => Fin.ext (by
    match d with
    | ⟨0, _⟩ => exact (rhs_row _ _).trans hk
    | ⟨1, _⟩ => exact rhs_col _ _)
  rw [el, er]

/-- The bias row broadcast down the tile, at row `r` and column `o`: the row's entry at `o`. -/
theorem bias_row (b : Vec Ideal S1x128 .f32) (r : Fin 5000) (o : Fin 128) :
    broadcastTo S5000x128 b broadcasts_S1x128_S5000x128 (ix2 r o) = b (ix2 (0 : Fin 1) o) :=
  broadcastTo_apply b broadcasts_S1x128_S5000x128 (ix2 r o) (ix2 (0 : Fin 1) o) (fun d => match d with
    | ⟨0, _⟩ => by show 0 = if (1 : Nat) = 1 then 0 else r.val; rw [if_pos rfl]
    | ⟨1, _⟩ => by show o.val = if (128 : Nat) = 1 then 0 else o.val; rw [if_neg (by decide)])

/-- THE STORED TILE at row `r`, column `o`: self path plus bias, plus neighbour path. -/
theorem pay_apply (xf xh : Vec Ideal S5000x128 .f32) (wn ws : Vec Ideal S128x128 .f32) (b : Vec Ideal S1x128 .f32)
    (r : Fin 5000) (o : Fin 128) :
    k0_pay1 (F := Ideal) xf xh wn ws b (ix2 r o)
      = (∑ k : Fin 128, xf (ix2 r k) * ws (ix2 k o) + b (ix2 (0 : Fin 1) o)) + ∑ k : Fin 128, xh (ix2 r k) * wn (ix2 k o) := by
  unfold k0_pay1
  simp only [shapeCast_self]
  refine (addf_apply _ _ _).trans ?_
  refine congrArg₂ (· + ·) ((addf_apply _ _ _).trans (congrArg₂ (· + ·) ?_ (bias_row b r o))) ?_
  · exact tile_matmul _ _ r o
  · exact tile_matmul _ _ r o

end Cert.KernelIdeal.Tile

end
-- ==== Proof.Whole.lean ====
/-
  From tiles to the whole output array.

  The pipeline has 20 grid points. At point `t` the feature window and the neighbour-mean window hold rows
  5000·t … 5000·t + 4999 of their arrays, the two weight windows and the bias window hold their whole arrays, and the output
  window writes back rows 5000·t … 5000·t + 4999 of the result. By `Tile.pay_apply` the tile written at point `t` is, at
  tile row `r` and column `o`, the fused layer's expression over row 5000·t + r of the features and of the means: it is
  tile `t` of ONE function of the arrays the pipeline finds (`result`). The 20 tiles cover all 100000 rows (row `n` lies in
  tile `n / 5000`), so after the run the output array is that function.

  The arrays the pipeline finds are named throughout as the pipeline names them — window `w`'s array — and are never
  opened here: what they hold is `Entry`'s business.
-/
import proofs.«169130_j37563783971094_2_alg».proof.Proof.Gen.KernelIdeal.Value
import proofs.«169130_j37563783971094_2_alg».proof.Proof.Tile
import proofs.«169130_j37563783971094_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.Whole

open Cert.KernelIdeal Cert.KernelIdeal.Gen Cert.SageFusion

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 20 grid points: the feature, mean and output windows are at block row `t`,
    block column 0; the weight and bias windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The bias row the pipeline finds (window 4's array, [1, 128]), as a vector indexed by the output feature. -/
def biasRow (c : Dev nD) : BiasVec.Idx → EReal :=
  fun i => (V m c (Pipeline.arrRef spec0 4) : S1x128.Idx → EReal) (ix2 (0 : Fin 1) (i 0 : Fin 128))

/-- THE RESULT: the fused layer of the arrays the pipeline finds when it starts — features (window 0), neighbour means
    (window 1), the two transposed weight matrices (windows 2 and 3), the bias row (window 4). -/
def result (c : Dev nD) : S100000x128.Idx → EReal :=
  fused (V m c (Pipeline.arrRef spec0 0)) (V m c (Pipeline.arrRef spec0 1)) (V m c (Pipeline.arrRef spec0 2))
    (V m c (Pipeline.arrRef spec0 3)) (biasRow m c)

/-! ## Each window's tile, read as entries of its array -/

/-- Tile row `r` of the feature window at point `t` is row `n = 5000·t + r` of the feature array. -/
theorem feat_blk (c : Dev nD) (t : Fin cfg0.N) (r : Fin 5000) (k : Fin 128) (n : Fin 100000) (hn : n.val = t.val * 5000 + r.val) :
    (iblk m c 0 t : S5000x128.Idx → EReal) (ix2 r k) = (V m c (Pipeline.arrRef spec0 0) : S100000x128.Idx → EReal) (ix2 n k) := by
  obtain ⟨e0, e1, -⟩ := idx_facts t
  have h : ((cfg0.win 0).blk t).view.emb (ix2 r k : S5000x128.Idx) = (ix2 n k : S100000x128.Idx) := by
    funext a; apply Fin.ext
    match a with
    | ⟨0, _⟩ => show win0_0.index t (0 : Fin 2) * 5000 + 1 * r.val = n.val; omega
    | ⟨1, _⟩ => show win0_0.index t (1 : Fin 2) * 128 + 1 * k.val = k.val; omega
  unfold iblk
  rw [View.read_apply, h]
  exact cast_eq _ _

/-- Tile row `r` of the neighbour-mean window at point `t` is row `n = 5000·t + r` of the mean array. -/
theorem mean_blk (c : Dev nD) (t : Fin cfg0.N) (r : Fin 5000) (k : Fin 128) (n : Fin 100000) (hn : n.val = t.val * 5000 + r.val) :
    (iblk m c 1 t : S5000x128.Idx → EReal) (ix2 r k) = (V m c (Pipeline.arrRef spec0 1) : S100000x128.Idx → EReal) (ix2 n k) := by
  obtain ⟨-, -, e0, e1, -⟩ := idx_facts t
  have h : ((cfg0.win 1).blk t).view.emb (ix2 r k : S5000x128.Idx) = (ix2 n k : S100000x128.Idx) := by
    funext a; apply Fin.ext
    match a with
    | ⟨0, _⟩ => show win0_1.index t (0 : Fin 2) * 5000 + 1 * r.val = n.val; omega
    | ⟨1, _⟩ => show win0_1.index t (1 : Fin 2) * 128 + 1 * k.val = k.val; omega
  unfold iblk
  rw [View.read_apply, h]
  exact cast_eq _ _

/-- The neighbour-path weight window holds the whole matrix at every point. -/
theorem wn_blk (c : Dev nD) (t : Fin cfg0.N) (k o : Fin 128) :
    (iblk m c 2 t : S128x128.Idx → EReal) (ix2 k o) = (V m c (Pipeline.arrRef spec0 2) : S128x128.Idx → EReal) (ix2 k o) := by
  obtain ⟨-, -, -, -, e0, e1, -⟩ := idx_facts t
  have h : ((cfg0.win 2).blk t).view.emb (ix2 k o : S128x128.Idx) = (ix2 k o : S128x128.Idx) := by
    funext a; apply Fin.ext
    match a with
    | ⟨0, _⟩ => show win0_2.index t (0 : Fin 2) * 128 + 1 * k.val = k.val; omega
    | ⟨1, _⟩ => show win0_2.index t (1 : Fin 2) * 128 + 1 * o.val = o.val; omega
  unfold iblk
  rw [View.read_apply, h]
  exact cast_eq _ _

/-- The self-path weight window holds the whole matrix at every point. -/
theorem ws_blk (c : Dev nD) (t : Fin cfg0.N) (k o : Fin 128) :
    (iblk m c 3 t : S128x128.Idx → EReal) (ix2 k o) = (V m c (Pipeline.arrRef spec0 3) : S128x128.Idx → EReal) (ix2 k o) := by
  obtain ⟨-, -, -, -, -, -, e0, e1, -⟩ := idx_facts t
  have h : ((cfg0.win 3).blk t).view.emb (ix2 k o : S128x128.Idx) = (ix2 k o : S128x128.Idx) := by
    funext a; apply Fin.ext
    match a with
    | ⟨0, _⟩ => show win0_3.index t (0 : Fin 2) * 128 + 1 * k.val = k.val; omega
    | ⟨1, _⟩ => show win0_3.index t (1 : Fin 2) * 128 + 1 * o.val = o.val; omega
  unfold iblk
  rw [View.read_apply, h]
  exact cast_eq _ _

/-- The bias window holds the whole bias row at every point. -/
theorem bias_blk (c : Dev nD) (t : Fin cfg0.N) (o : Fin 128) :
    (iblk m c 4 t : S1x128.Idx → EReal) (ix2 (0 : Fin 1) o) = (V m c (Pipeline.arrRef spec0 4) : S1x128.Idx → EReal) (ix2 (0 : Fin 1) o) := by
  obtain ⟨-, -, -, -, -, -, -, -, e0, e1, -⟩ := idx_facts t
  have h : ((cfg0.win 4).blk t).view.emb (ix2 (0 : Fin 1) o : S1x128.Idx) = (ix2 (0 : Fin 1) o : S1x128.Idx) := by
    funext a; apply Fin.ext
    match a with
    | ⟨0, _⟩ => show win0_4.index t (0 : Fin 2) * 1 + 1 * 0 = 0; omega
    | ⟨1, _⟩ => show win0_4.index t (1 : Fin 2) * 128 + 1 * o.val = o.val; omega
  unfold iblk
  rw [View.read_apply, h]
  exact cast_eq _ _

/-- Tile entry (r, o) of the output window at point `t` sits at entry (5000·t + r, o) of the output array. -/
theorem out_emb (t : Fin cfg0.N) (r : Fin 5000) (o : Fin 128) (n : Fin 100000) (hn : n.val = t.val * 5000 + r.val) :
    ((cfg0.win 5).blk t).view.emb (ix2 r o : S5000x128.Idx) = (ix2 n o : S100000x128.Idx) := by
  obtain ⟨-, -, -, -, -, -, -, -, -, -, e0, e1⟩ := idx_facts t
  funext a; apply Fin.ext
  match a with
  | ⟨0, _⟩ => show win0_5.index t (0 : Fin 2) * 5000 + 1 * r.val = n.val; omega
  | ⟨1, _⟩ => show win0_5.index t (1 : Fin 2) * 128 + 1 * o.val = o.val; omega

/-! ## What a point writes back -/

/-- The tile stored at point `t`, entry by entry, is `result` at the entry's place in the output array. -/
theorem tile_eq (c : Dev nD) (t : Fin cfg0.N) (j : S5000x128.Idx) :
    k0_pay1 (F := Ideal) (iblk m c 0 t) (iblk m c 1 t) (iblk m c 2 t) (iblk m c 3 t) (iblk m c 4 t) j
      = result m c (((cfg0.win 5).blk t).view.emb j) := by
  obtain ⟨r, o, rfl⟩ : ∃ (r : Fin 5000) (o : Fin 128), j = ix2 r o := ⟨j 0, j 1, eq_ix2 j⟩
  have hN : cfg0.N = 20 := N_0
  have ht : t.val < 20 := by have := t.isLt; omega
  have hr : r.val < 5000 := r.isLt
  obtain ⟨n, hn⟩ : ∃ n : Fin 100000, n.val = t.val * 5000 + r.val := ⟨⟨t.val * 5000 + r.val, by omega⟩, rfl⟩
  rw [out_emb t r o n hn]
  refine (Tile.pay_apply (iblk m c 0 t) (iblk m c 1 t) (iblk m c 2 t) (iblk m c 3 t) (iblk m c 4 t) r o).trans ?_
  unfold result
  rw [fused_apply]
  refine congrArg₂ (· + ·) (congrArg₂ (· + ·) (Finset.sum_congr rfl fun k _ => ?_) ?_) (Finset.sum_congr rfl fun k _ => ?_)
  · rw [feat_blk m c t r k n hn, ws_blk m c t k o]
  · exact bias_blk m c t o
  · rw [mean_blk m c t r k n hn, wn_blk m c t k o]

/-- The same as one equation between tiles. -/
theorem tile_fun (c : Dev nD) (t : Fin cfg0.N) :
    k0_pay1 (F := Ideal) (iblk m c 0 t) (iblk m c 1 t) (iblk m c 2 t) (iblk m c 3 t) (iblk m c 4 t)
      = fun j : S5000x128.Idx => result m c (((cfg0.win 5).blk t).view.emb j) :=
  funext fun j => tile_eq m c t j

/-- WHAT POINT `t` WRITES BACK is tile `t` of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S5000x128) hz, View.ld_unit_zero (S := S128x128) hz, View.ld_unit_zero (S := S1x128) hz]
  rw [tile_fun m c t]
  generalize result m c = G
  rfl

/-! ## The tiles cover the array -/

/-- An index of the output array is in point `t`'s tile iff each coordinate is in the tile's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- Row `n` of the output array lies in the tile of point `n / 5000`, which writes back. -/
theorem cover (i : S100000x128.Idx) : ∃ t : Fin cfg0.N, (cfg0.win 5).flush t = true ∧ i ∈ ((cfg0.win 5).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the run is `result`. -/
theorem final (c : Dev nD) : (dats m 0 c).arrAt 5 cfg0.N = result m c :=
  (dats m 0 c).arrAt_eq_of_cover 5 (result m c) (fun t _ => flushed_eq m c t) cover

/-- The kernel's run: every weakly fair execution ends with the output array at `result` and the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.Entry.lean ====
/-
  What the kernel's pipeline finds in its operand arrays when it starts.

  Before the pallas_call the kernel's program runs, on the host, the same operations as the reference: the gather of the
  source rows, the two scatter-adds (feature sums and degree counts), the division by the clamped degree, and the transposes
  of the two weight matrices. So the neighbour-mean array and the transposed matrices the pipeline stages are the reference's own
  intermediate stages of the same arguments — taken here as whole terms, never opened — and the bias row [1, 128] is the
  bias vector re-laid.
-/
import proofs.«169130_j37563783971094_2_alg».proof.Proof.Gen.KernelIdeal.Frame
import proofs.«169130_j37563783971094_2_alg».proof.Proof.Gen.ReferenceIdeal.Read
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.ValueIdx Idealize.ShloMosaic.StableHlo

namespace Cert.KernelIdeal.Entry

open Cert.KernelIdeal Cert.KernelIdeal.Gen

variable (m : (ℓ : Loc nD τ sig) → Buf (Elt Ideal) ℓ)

set_option maxHeartbeats 2000000 in
/-- The neighbour-mean array the pipeline stages is the reference's stage 18 of the same three arguments
    (features, source indices, destination indices): the two programs' host operations up to it are the same. -/
theorem mean_eq (c : Dev nD) :
    (V m c main_v18 : S100000x128.Idx → EReal)
      = Cert.ReferenceIdeal.Read.val_main_v18 (F := Ideal) (m ((c : Thread nD τ).loc main_arg0)) (m ((c : Thread nD τ).loc main_arg1)) (m ((c : Thread nD τ).loc main_arg2)) := by
  dsimp only [Gen.V, Gen.hostOps0]
  after_results_simp <;> rfl

/-- The neighbour-path weights the pipeline stages: `W_neigh` transposed, the reference's stage 19. -/
theorem wn_eq (c : Dev nD) :
    (V m c main_v19 : S128x128.Idx → EReal) = Cert.ReferenceIdeal.Read.val_main_v19 (F := Ideal) (m ((c : Thread nD τ).loc main_arg3)) := by
  dsimp only [Gen.V, Gen.hostOps0]
  after_results
  rfl

/-- The self-path weights the pipeline stages: `W_self` transposed, the reference's stage 21. -/
theorem ws_eq (c : Dev nD) :
    (V m c main_v20 : S128x128.Idx → EReal) = Cert.ReferenceIdeal.Read.val_main_v21 (F := Ideal) (m ((c : Thread nD τ).loc main_arg4)) := by
  dsimp only [Gen.V, Gen.hostOps0]
  after_results
  rfl

/-- The bias row the pipeline stages, at column `o`: the bias vector's entry `o` (a [128] vector re-laid as [1, 128]). -/
theorem bias_eq (c : Dev nD) (o : Fin 128) :
    (V m c main_v21 : S1x128.Idx → EReal) (ix2 (0 : Fin 1) o) = (m ((c : Thread nD τ).loc main_arg5) : S128.Idx → EReal) (ix1 o) := by
  have e : (V m c main_v21 : S1x128.Idx → EReal) = shapeCast S1x128 (m ((c : Thread nD τ).loc main_arg5) : S128.Idx → EReal) shapeCasts_S128_S1x128 := by
    dsimp only [Gen.V, Gen.hostOps0]
    after_results
    rfl
  rw [e]
  refine shapeCast_apply _ shapeCasts_S128_S1x128 (ix2 (0 : Fin 1) o) (ix1 o) ?_
  rw [Shape.rowMajor_val_one, Shape.rowMajor_val_two]
  show o.val = 0 * 128 + o.val
  omega

/-! ## The same, with each array named as the pipeline names it: window `w`'s array -/

/-- Window 0's array is the feature array as launched: no host operation writes it. -/
theorem win_feat (c : Dev nD) :
    (V m c (Pipeline.arrRef spec0 0) : S100000x128.Idx → EReal) = m ((c : Thread nD τ).loc main_arg0) := V_main_arg0 m c

/-- Window 1's array is the neighbour-mean array. -/
theorem win_mean (c : Dev nD) :
    (V m c (Pipeline.arrRef spec0 1) : S100000x128.Idx → EReal)
      = Cert.ReferenceIdeal.Read.val_main_v18 (F := Ideal) (m ((c : Thread nD τ).loc main_arg0)) (m ((c : Thread nD τ).loc main_arg1)) (m ((c : Thread nD τ).loc main_arg2)) :=
  mean_eq m c

/-- Window 2's array is `W_neigh` transposed. -/
theorem win_wn (c : Dev nD) :
    (V m c (Pipeline.arrRef spec0 2) : S128x128.Idx → EReal) = Cert.ReferenceIdeal.Read.val_main_v19 (F := Ideal) (m ((c : Thread nD τ).loc main_arg3)) :=
  wn_eq m c

/-- Window 3's array is `W_self` transposed. -/
theorem win_ws (c : Dev nD) :
    (V m c (Pipeline.arrRef spec0 3) : S128x128.Idx → EReal) = Cert.ReferenceIdeal.Read.val_main_v21 (F := Ideal) (m ((c : Thread nD τ).loc main_arg4)) :=
  ws_eq m c

/-- Window 4's array is the bias row. -/
theorem win_bias (c : Dev nD) (o : Fin 128) :
    (V m c (Pipeline.arrRef spec0 4) : S1x128.Idx → EReal) (ix2 (0 : Fin 1) o) = (m ((c : Thread nD τ).loc main_arg5) : S128.Idx → EReal) (ix1 o) :=
  bias_eq m c o

end Cert.KernelIdeal.Entry

end
-- ==== Proof.Bridge.lean ====
/-
  The kernel's result as the fused layer of the reference's own stages.

  `Whole.result` is the fused layer of the arrays the pipeline finds. Those arrays are (`Entry`): the features as launched,
  the reference's neighbour-mean stage, its two transposed weight matrices, and the bias vector re-laid as a row. So the
  kernel's output array is `SageFusion.fused` of exactly the five arrays the reference's last stage is the fused layer of.
-/
import proofs.«169130_j37563783971094_2_alg».proof.Proof.Whole
import proofs.«169130_j37563783971094_2_alg».proof.Proof.Entry
import proofs.«169130_j37563783971094_2_alg».proof.Proof.Spec

noncomputable section

open Idealize.ShloMosaic Idealize.ShloMosaic.TcCoe Idealize.SL.Sem Idealize.ShloMosaic.ValueIdx

namespace Cert.KernelIdeal.Bridge

open Cert.KernelIdeal Cert.KernelIdeal.Gen Cert.SageFusion

variable (m : (ℓ : Loc nD τ sig) → Buf (Elt Ideal) ℓ)

/-- The bias row read column by column is the bias vector. -/
theorem biasRow_eq (c : Dev nD) : Whole.biasRow m c = (m ((c : Thread nD τ).loc main_arg5) : S128.Idx → EReal) := by
  funext i
  unfold Whole.biasRow
  rw [Entry.win_bias m c (i 0 : Fin 128)]
  exact congrArg (m ((c : Thread nD τ).loc main_arg5) : S128.Idx → EReal) (eq_ix1 i).symm

/-- The kernel's output array, in the reference's terms. -/
theorem result_eq (c : Dev nD) :
    Whole.result m c = fused (m ((c : Thread nD τ).loc main_arg0))
      (Cert.ReferenceIdeal.Read.val_main_v18 (F := Ideal) (m ((c : Thread nD τ).loc main_arg0)) (m ((c : Thread nD τ).loc main_arg1)) (m ((c : Thread nD τ).loc main_arg2)))
      (Cert.ReferenceIdeal.Read.val_main_v19 (F := Ideal) (m ((c : Thread nD τ).loc main_arg3)))
      (Cert.ReferenceIdeal.Read.val_main_v21 (F := Ideal) (m ((c : Thread nD τ).loc main_arg4)))
      (m ((c : Thread nD τ).loc main_arg5)) := by
  unfold Whole.result
  rw [Entry.win_feat, Entry.win_mean, Entry.win_wn, Entry.win_ws, biasRow_eq]

end Cert.KernelIdeal.Bridge

end
-- ==== Proof.lean ====
/-
  The fused GraphSAGE layer: a tiled kernel against the whole-array reference, on the extended reals.

  Both programs first compute, on the host and with the same operations, the neighbour means h (gather the source rows,
  scatter-add them and a count of ones onto the destinations, divide by the degree clamped below at 1) and transpose the two
  weight matrices. The reference then forms (x · W_selfᵀ + b) + h · W_neighᵀ on whole arrays. The kernel cuts the
  100000 nodes into 20 tiles of 5000 rows and at each tile forms (x_tile · W_selfᵀ + b) + h_tile · W_neighᵀ, rounding its
  operands to bf16 first — the identity on the extended reals — and accumulating each product into zero.

  Entry by entry both are

      out[n, o] = (Σ_k x[n, k] · W_self[o, k] + b[o]) + Σ_k h[n, k] · W_neigh[o, k],

  with the additions in the same order (`Spec`: the function `fused`). `RefValue` reads the reference's last stage as `fused`;
  `Tile` reads the kernel's stored tile at an entry; `Whole` shows tile t of the output array is what point t writes and that
  the tiles cover the array; `Entry` identifies the arrays the pipeline finds with the reference's stages; `Bridge` puts the
  kernel's result in the reference's terms. The neighbour means enter both sides as the same term and are never opened, and no
  step uses that the inputs are finite. The idealization rewrote nothing, so `preserves` is trivial; the frames are the
  generated ones, the reference's being its generated run with the result dropped.
-/
import proofs.«169130_j37563783971094_2_alg».proof.Defs
import proofs.«169130_j37563783971094_2_alg».proof.Proof.Gen.Kernel
import proofs.«169130_j37563783971094_2_alg».proof.Proof.Gen.Kernel.Skeleton
import proofs.«169130_j37563783971094_2_alg».proof.Proof.Gen.Kernel.Launch
import proofs.«169130_j37563783971094_2_alg».proof.Proof.Gen.Kernel.Points
import proofs.«169130_j37563783971094_2_alg».proof.Proof.Gen.Kernel.Frame
import proofs.«169130_j37563783971094_2_alg».proof.Proof.Gen.KernelIdeal
import proofs.«169130_j37563783971094_2_alg».proof.Proof.Gen.KernelIdeal.Skeleton
import proofs.«169130_j37563783971094_2_alg».proof.Proof.Gen.KernelIdeal.Launch
import proofs.«169130_j37563783971094_2_alg».proof.Proof.Gen.KernelIdeal.Points
import proofs.«169130_j37563783971094_2_alg».proof.Proof.Gen.KernelIdeal.Frame
import proofs.«169130_j37563783971094_2_alg».proof.Proof.Gen.ReferenceIdeal
import proofs.«169130_j37563783971094_2_alg».proof.Proof.Gen.Pre_finite_inputs
import proofs.«169130_j37563783971094_2_alg».proof.Proof.Gen.KernelIdeal.Value
import proofs.«169130_j37563783971094_2_alg».proof.Proof.Gen.ReferenceIdeal.Run
import proofs.«169130_j37563783971094_2_alg».proof.Proof.Gen.ReferenceIdeal.Read
import proofs.«169130_j37563783971094_2_alg».proof.Proof.RefValue
import proofs.«169130_j37563783971094_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged: the generated frame. -/
theorem frame_kernel : Cert.frame_Kernel := fun m ρ _ => Cert.Kernel.Gen.frame m ρ

/-- The same for the idealized kernel. -/
theorem frame_kernelIdeal : Cert.frame_KernelIdeal := fun m ρ _ => Cert.KernelIdeal.Gen.frame m ρ

/-- The reference terminates and leaves its arguments unchanged: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments, the kernel's output array and the reference's result are the same
    array: both are the fused layer of the features, the neighbour means, the transposed weights and the bias. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v26_eq, Cert.ReferenceIdeal.RefValue.result_eq, h0, h1, h2, h3, h4, h5]
  exact (Cert.KernelIdeal.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
